-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v13)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v13) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v23) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x3x8192 : Shape := ⟨3, ![4, 3, 8192]⟩
abbrev S_ : Shape := ⟨0, ![]⟩

class Facts : Prop where
  bcast_S_S4x3x8192 : S_.BroadcastsInDim S4x3x8192 (![] : Fin 0 → Fin S4x3x8192.rank)
  reducesTo_S4x3x8192_S_d0_1_2 : S4x3x8192.ReducesTo [0, 1, 2] S_
  h_S_ : 0 < S_.numel

variable [Facts]

def fn {F : FTy → Type} [FloatOps F] (main_arg0 : FVec F S4x3x8192 .f32) (main_arg1 : FVec F S4x3x8192 .f32) : IVec S_ 1 :=
  let main_v0 : FVec F S4x3x8192 .f32 := Host.absf main_arg0
  let main_cst : FVec F S_ .f32 := constant S_ .f32 0x7F800000#32
  let main_v1 : FVec F S4x3x8192 .f32 := broadcastInDim S4x3x8192 ![] bcast_S_S4x3x8192 main_cst
  let main_v2 : IVec S4x3x8192 1 := cmpf .olt main_v0 main_v1
  let main_c : IVec S_ 1 := constantI S_ 1 1#1
  let main_v3 : IVec S_ 1 := (fun x v => Host.reduce IntOp.andi x v reducesTo_S4x3x8192_S_d0_1_2 h_S_) main_v2 main_c
  let main_v4 : FVec F S4x3x8192 .f32 := Host.absf main_arg1
  let main_cst_0 : FVec F S_ .f32 := constant S_ .f32 0x7F800000#32
  let main_v5 : FVec F S4x3x8192 .f32 := broadcastInDim S4x3x8192 ![] bcast_S_S4x3x8192 main_cst_0
  let main_v6 : IVec S4x3x8192 1 := cmpf .olt main_v4 main_v5
  let main_c_1 : IVec S_ 1 := constantI S_ 1 1#1
  let main_v7 : IVec S_ 1 := (fun x v => Host.reduce IntOp.andi x v reducesTo_S4x3x8192_S_d0_1_2 h_S_) main_v6 main_c_1
  let main_v8 : IVec S_ 1 := andi main_v3 main_v7
  main_v8
-- ==== Kernel.lean ====
abbrev S4x3x8192 : Shape := ⟨3, ![4, 3, 8192]⟩
abbrev S_ : Shape := ⟨0, ![]⟩
abbrev S4x8192 : Shape := ⟨2, ![4, 8192]⟩
abbrev S4x8192x1 : Shape := ⟨3, ![4, 8192, 1]⟩
abbrev S4x1x8192 : Shape := ⟨3, ![4, 1, 8192]⟩
abbrev S1x3x1024 : Shape := ⟨3, ![1, 3, 1024]⟩
abbrev S1x1024x1 : Shape := ⟨3, ![1, 1024, 1]⟩
abbrev S1x1x1024 : Shape := ⟨3, ![1, 1, 1024]⟩
abbrev S1024x1 : Shape := ⟨2, ![1024, 1]⟩
abbrev S3x1024 : Shape := ⟨2, ![3, 1024]⟩
abbrev S1024x1024 : Shape := ⟨2, ![1024, 1024]⟩
abbrev S1x1024 : Shape := ⟨2, ![1, 1024]⟩
abbrev S1024 : Shape := ⟨1, ![1024]⟩
abbrev S4 : Shape := ⟨1, ![4]⟩

abbrev nBuf : Space → Nat
  | .hbm => 23
  | .vmem => 11
  | .smem => 0
  | _ => 0

abbrev bufTy : (tb : Table) → Fin (tcTables nBuf tb) → BufTy
  | .hbm, ⟨0, _⟩ => ⟨S4x3x8192, .f32⟩
  | .hbm, ⟨1, _⟩ => ⟨S4x3x8192, .f32⟩
  | .hbm, ⟨2, _⟩ => ⟨S4x3x8192, .f32⟩
  | .hbm, ⟨3, _⟩ => ⟨S_, .f32⟩
  | .hbm, ⟨4, _⟩ => ⟨S4x8192, .f32⟩
  | .hbm, ⟨5, _⟩ => ⟨S4x8192x1, .f32⟩
  | .hbm, ⟨6, _⟩ => ⟨S4x3x8192, .f32⟩
  | .hbm, ⟨7, _⟩ => ⟨S_, .f32⟩
  | .hbm, ⟨8, _⟩ => ⟨S4x8192, .f32⟩
  | .hbm, ⟨9, _⟩ => ⟨S4x1x8192, .f32⟩
  | .hbm, ⟨10, _⟩ => ⟨S4x8192x1, .f32⟩
  | .hbm, ⟨11, _⟩ => ⟨S4x8192, .f32⟩
  | .hbm, ⟨12, _⟩ => ⟨S_, .f32⟩
  | .hbm, ⟨13, _⟩ => ⟨S4, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S_, .f32⟩
  | .hbm, ⟨20, _⟩ => ⟨S_, .f32⟩
  | .hbm, ⟨21, _⟩ => ⟨S_, .f32⟩
  | .hbm, ⟨22, _⟩ => ⟨S_, .f32⟩
  | .local _ .vmem, ⟨0, _⟩ => ⟨S1x3x1024, .f32⟩
  | .local _ .vmem, ⟨1, _⟩ => ⟨S1x3x1024, .f32⟩
  | .local _ .vmem, ⟨2, _⟩ => ⟨S1x3x1024, .f32⟩
  | .local _ .vmem, ⟨3, _⟩ => ⟨S1x3x1024, .f32⟩
  | .local _ .vmem, ⟨4, _⟩ => ⟨S1x1024x1, .f32⟩
  | .local _ .vmem, ⟨5, _⟩ => ⟨S1x1024x1, .f32⟩
  | .local _ .vmem, ⟨6, _⟩ => ⟨S1x1x1024, .f32⟩
  | .local _ .vmem, ⟨7, _⟩ => ⟨S1x1x1024, .f32⟩
  | .local _ .vmem, ⟨8, _⟩ => ⟨S1x1024x1, .f32⟩
  | .local _ .vmem, ⟨9, _⟩ => ⟨S1x1024x1, .f32⟩
  | .local _ .vmem, ⟨10, _⟩ => ⟨S1024x1, .f32⟩
  | _, _ => ⟨S4x3x8192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst_1 : Ref sig .tc := ⟨.hbm, 12, rfl⟩
abbrev main_v8 : Ref sig .tc := ⟨.hbm, 13, rfl⟩
abbrev main_cst_2 : Ref sig .tc := ⟨.hbm, 14, rfl⟩
abbrev main_v9 : Ref sig .tc := ⟨.hbm, 15, rfl⟩
abbrev main_cst_3 : Ref sig .tc := ⟨.hbm, 16, rfl⟩
abbrev main_v10 : Ref sig .tc := ⟨.hbm, 17, rfl⟩
abbrev main_cst_4 : Ref sig .tc := ⟨.hbm, 18, rfl⟩
abbrev main_v11 : Ref sig .tc := ⟨.hbm, 19, rfl⟩
abbrev main_cst_5 : Ref sig .tc := ⟨.hbm, 20, rfl⟩
abbrev main_v12 : Ref sig .tc := ⟨.hbm, 21, rfl⟩
abbrev main_v13 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨3, ![4, 8, 8], ![false, false, false]⟩

def k0_cond2 (i : grid0.Coords) : BitVec 1 :=
  let arg2 : BitVec 32 := BitVec.ofNat 32 (i 2).val
  let c7_i32 : BitVec 32 := 7#32
  let v23 : BitVec 1 := Scalar.cmpi .eq arg2 c7_i32
  let v24 : BitVec 32 := Scalar.extui v23
  let c0_i32_15 : BitVec 32 := 0#32
  let v25 : BitVec 1 := Scalar.cmpi .ne v24 c0_i32_15
  v25

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg2.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg2.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

abbrev stage0_0 : Fin 2 → Memref sig .tc .vmem S1x3x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 2 → Memref sig .tc .vmem S1x3x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1x1024x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false, true]

abbrev stage0_4 : Fin 2 → Memref sig .tc .vmem S1x1024x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

class Facts₀ : Prop where
  reducesTo_S4x3x8192_S4x8192_d1 : S4x3x8192.ReducesTo [1] S4x8192
  h_S_ : 0 < S_.numel
  bcast_S4x8192_S4x8192x1_0_1 : S4x8192.BroadcastsInDim S4x8192x1 (![0, 1] : Fin 2 → Fin S4x8192x1.rank)
  bcast_S4x8192_S4x1x8192_0_2 : S4x8192.BroadcastsInDim S4x1x8192 (![0, 2] : Fin 2 → Fin S4x1x8192.rank)
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  inb_S1x3x1024_S1x3x1024_0_0_0 : ∀ a, (![0, 0, 0] : Fin 3 → Nat) a + S1x3x1024.size a ≤ S1x3x1024.size a
  h_S1x3x1024 : 0 < S1x3x1024.numel
  shapeCasts_S1x3x1024_S3x1024 : S1x3x1024.ShapeCasts S3x1024
  bitsLt_bf16_f32 : FTy.bits .bf16 < FTy.bits .f32
  inb_S1x1x1024_S1x1x1024_0_0_0 : ∀ a, (![0, 0, 0] : Fin 3 → Nat) a + S1x1x1024.size a ≤ S1x1x1024.size a
  h_S1x1x1024 : 0 < S1x1x1024.numel
  shapeCasts_S1x1x1024_S1x1024 : S1x1x1024.ShapeCasts S1x1024
  broadcasts_S1x1024_S1024x1024 : S1x1024.Broadcasts S1024x1024
  reduces_S1024x1024_S1024 : S1024x1024.Reduces [1] S1024
  shapeCasts_S1024_S1024x1 : S1024.ShapeCasts S1024x1
  inb_S1x1024x1_S1x1024x1_0_0_0 : ∀ a, (![0, 0, 0] : Fin 3 → Nat) a + S1x1024x1.size a ≤ S1x1024x1.size a
  h_S1x1024x1 : 0 < S1x1024x1.numel
  shapeCasts_S1x1024x1_S1024x1 : S1x1024x1.ShapeCasts S1024x1
  shapeCasts_S1024x1_S1x1024x1 : S1024x1.ShapeCasts S1x1024x1
  shapeCasts_S4x8192x1_S4x8192 : S4x8192x1.ShapeCasts S4x8192
  reducesTo_S4x8192_S4_d1 : S4x8192.ReducesTo [1] S4
  reducesTo_S4_S_d0 : S4.ReducesTo [0] S_
  dot_S3x1024_S3x1024_S1024x1024_0_0_1_1_n_n_wf : DotDims.WF S3x1024 S3x1024 S1024x1024 [0] [0] [1] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x3x1024.size a ≤ S4x3x8192.size a
  hwx0_0 : ∀ i : grid0.Coords, EltTy.bits .f32 = 32 ∨ (Rect.block (s := S4x3x8192) S1x3x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x3x1024.size a ≤ S4x3x8192.size a
  hwx0_1 : ∀ i : grid0.Coords, EltTy.bits .f32 = 32 ∨ (Rect.block (s := S4x3x8192) S1x3x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1024x1.size a ≤ S4x8192x1.size a
  hwx0_2 : ∀ i : grid0.Coords, EltTy.bits .f32 = 32 ∨ (Rect.block (s := S4x8192x1) S1x1024x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1x1024.size a ≤ S4x1x8192.size a
  hwx0_3 : ∀ i : grid0.Coords, EltTy.bits .f32 = 32 ∨ (Rect.block (s := S4x1x8192) S1x1x1024.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x1024x1.size a ≤ S4x8192x1.size a
  hwx0_4 : ∀ i : grid0.Coords, EltTy.bits .f32 = 32 ∨ (Rect.block (s := S4x8192x1) S1x1024x1.size (cc0_transform_4 i) (hinb0_4 i)).WholeWords (EltTy.packing .f32)

variable [Facts₀]

def dot_S3x1024_S3x1024_S1024x1024_0_0_1_1_n_n : DotDims S3x1024 S3x1024 S1024x1024 where
  lhsContracting := [0]
  rhsContracting := [0]
  lhsNonContracting := [1]
  rhsNonContracting := [1]
  lhsBatch := []
  rhsBatch := []
  wf := dot_S3x1024_S3x1024_S1024x1024_0_0_1_1_n_n_wf

abbrev win0_0 : Pipeline.Window sig grid0 :=
  Pipeline.Window.ofSpec (Memref.whole main_arg0) S1x3x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x3x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1x1024x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v5) S1x1x1024.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v6) S1x1024x1.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev idle0 : Fin 5 → grid0.Coords → Bool := fun | 0 => fun _ => false | 1 => fun _ => false | 2 => fun _ => false | 3 => fun _ => false | 4 => fun i => !(k0_cond2 i == 1#1) | ⟨_ + 5, h⟩ => absurd h (Nat.not_lt.2 (Nat.le_add_left _ _))

class Facts : Prop extends Facts₀ where

variable [Facts]
-- ==== ReferenceIdeal.lean ====
abbrev S4x3x8192 : Shape := ⟨3, ![4, 3, 8192]⟩
abbrev S4x8192x3 : Shape := ⟨3, ![4, 8192, 3]⟩
abbrev S_ : Shape := ⟨0, ![]⟩
abbrev S4x8192 : Shape := ⟨2, ![4, 8192]⟩
abbrev S4x8192x8192 : Shape := ⟨3, ![4, 8192, 8192]⟩
abbrev S4x8192x1 : Shape := ⟨3, ![4, 8192, 1]⟩
abbrev S4x1x8192 : Shape := ⟨3, ![4, 1, 8192]⟩
abbrev S4 : Shape := ⟨1, ![4]⟩

abbrev nBuf : Space → Nat
  | .hbm => 36
  | .vmem => 0
  | .smem => 0
  | _ => 0

abbrev bufTy : (tb : Table) → Fin (tcTables nBuf tb) → BufTy
  | .hbm, ⟨0, _⟩ => ⟨S4x3x8192, .f32⟩
  | .hbm, ⟨1, _⟩ => ⟨S4x3x8192, .f32⟩
  | .hbm, ⟨2, _⟩ => ⟨S4x8192x3, .f32⟩
  | .hbm, ⟨3, _⟩ => ⟨S4x8192x3, .f32⟩
  | .hbm, ⟨4, _⟩ => ⟨S4x8192x3, .f32⟩
  | .hbm, ⟨5, _⟩ => ⟨S_, .f32⟩
  | .hbm, ⟨6, _⟩ => ⟨S4x8192, .f32⟩
  | .hbm, ⟨7, _⟩ => ⟨S4x8192x3, .f32⟩
  | .hbm, ⟨8, _⟩ => ⟨S_, .f32⟩
  | .hbm, ⟨9, _⟩ => ⟨S4x8192, .f32⟩
  | .hbm, ⟨10, _⟩ => ⟨S4x8192x8192, .f32⟩
  | .hbm, ⟨11, _⟩ => ⟨S4x8192x1, .f32⟩
  | .hbm, ⟨12, _⟩ => ⟨S4x1x8192, .f32⟩
  | .hbm, ⟨13, _⟩ => ⟨S4x8192x8192, .f32⟩
  | .hbm, ⟨14, _⟩ => ⟨S4x8192x8192, .f32⟩
  | .hbm, ⟨15, _⟩ => ⟨S4x8192x8192, .f32⟩
  | .hbm, ⟨16, _⟩ => ⟨S_, .f32⟩
  | .hbm, ⟨17, _⟩ => ⟨S4x8192x8192, .f32⟩
  | .hbm, ⟨18, _⟩ => ⟨S4x8192x8192, .f32⟩
  | .hbm, ⟨19, _⟩ => ⟨S4x8192x8192, .f32⟩
  | .hbm, ⟨20, _⟩ => ⟨S_, .f32⟩
  | .hbm, ⟨21, _⟩ => ⟨S4x8192x8192, .f32⟩
  | .hbm, ⟨22, _⟩ => ⟨S4x8192x8192, .f32⟩
  | .hbm, ⟨23, _⟩ => ⟨S_, .f32⟩
  | .hbm, ⟨24, _⟩ => ⟨S4x8192, .f32⟩
  | .hbm, ⟨25, _⟩ => ⟨S_, .f32⟩
  | .hbm, ⟨26, _⟩ => ⟨S4, .f32⟩
  | .hbm, ⟨27, _⟩ => ⟨S_, .f32⟩
  | .hbm, ⟨28, _⟩ => ⟨S_, .f32⟩
  | .hbm, ⟨29, _⟩ => ⟨S_, .f32⟩
  | .hbm, ⟨30, _⟩ => ⟨S_, .f32⟩
  | .hbm, ⟨31, _⟩ => ⟨S_, .f32⟩
  | .hbm, ⟨32, _⟩ => ⟨S_, .f32⟩
  | .hbm, ⟨33, _⟩ => ⟨S_, .f32⟩
  | .hbm, ⟨34, _⟩ => ⟨S_, .f32⟩
  | .hbm, ⟨35, _⟩ => ⟨S_, .f32⟩
  | _, _ => ⟨S4x3x8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_cst_0 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_cst_1 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_cst_2 : Ref sig .tc := ⟨.hbm, 20, rfl⟩
abbrev main_v15 : Ref sig .tc := ⟨.hbm, 21, rfl⟩
abbrev main_v16 : Ref sig .tc := ⟨.hbm, 22, rfl⟩
abbrev main_cst_3 : Ref sig .tc := ⟨.hbm, 23, rfl⟩
abbrev main_v17 : Ref sig .tc := ⟨.hbm, 24, rfl⟩
abbrev main_cst_4 : Ref sig .tc := ⟨.hbm, 25, rfl⟩
abbrev main_v18 : Ref sig .tc := ⟨.hbm, 26, rfl⟩
abbrev main_cst_5 : Ref sig .tc := ⟨.hbm, 27, rfl⟩
abbrev main_v19 : Ref sig .tc := ⟨.hbm, 28, rfl⟩
abbrev main_cst_6 : Ref sig .tc := ⟨.hbm, 29, rfl⟩
abbrev main_v20 : Ref sig .tc := ⟨.hbm, 30, rfl⟩
abbrev main_cst_7 : Ref sig .tc := ⟨.hbm, 31, rfl⟩
abbrev main_v21 : Ref sig .tc := ⟨.hbm, 32, rfl⟩
abbrev main_cst_8 : Ref sig .tc := ⟨.hbm, 33, rfl⟩
abbrev main_v22 : Ref sig .tc := ⟨.hbm, 34, rfl⟩
abbrev main_v23 : Ref sig .tc := ⟨.hbm, 35, rfl⟩

abbrev nD : Nat := 1
abbrev τ : Topo := Topo.v7x

variable {F : FTy → Type} [FloatOps F]

class Facts₀ : Prop where
  transposes_S4x3x8192_S4x8192x3_0_2_1 : S4x3x8192.Transposes [0, 2, 1] S4x8192x3
  reducesTo_S4x8192x3_S4x8192_d2 : S4x8192x3.ReducesTo [2] S4x8192
  h_S_ : 0 < S_.numel
  bcast_S4x8192_S4x8192x1_0_1 : S4x8192.BroadcastsInDim S4x8192x1 (![0, 1] : Fin 2 → Fin S4x8192x1.rank)
  bcast_S4x8192_S4x1x8192_0_2 : S4x8192.BroadcastsInDim S4x1x8192 (![0, 2] : Fin 2 → Fin S4x1x8192.rank)
  bcast_S4x8192x1_S4x8192x8192_0_1_2 : S4x8192x1.BroadcastsInDim S4x8192x8192 (![0, 1, 2] : Fin 3 → Fin S4x8192x8192.rank)
  bcast_S4x1x8192_S4x8192x8192_0_1_2 : S4x1x8192.BroadcastsInDim S4x8192x8192 (![0, 1, 2] : Fin 3 → Fin S4x8192x8192.rank)
  bcast_S_S4x8192x8192 : S_.BroadcastsInDim S4x8192x8192 (![] : Fin 0 → Fin S4x8192x8192.rank)
  reducesTo_S4x8192x8192_S4x8192_d2 : S4x8192x8192.ReducesTo [2] S4x8192
  reducesTo_S4x8192_S4_d1 : S4x8192.ReducesTo [1] S4
  reducesTo_S4_S_d0 : S4.ReducesTo [0] S_
  dot_S4x8192x3_S4x8192x3_S4x8192x8192_2_2_1_1_0_0_wf : DotDims.WF S4x8192x3 S4x8192x3 S4x8192x8192 [2] [2] [1] [1] [0] [0]

variable [Facts₀]

def dot_S4x8192x3_S4x8192x3_S4x8192x8192_2_2_1_1_0_0 : DotDims S4x8192x3 S4x8192x3 S4x8192x8192 where
  lhsContracting := [2]
  rhsContracting := [2]
  lhsNonContracting := [1]
  rhsNonContracting := [1]
  lhsBatch := [0]
  rhsBatch := [0]
  wf := dot_S4x8192x3_S4x8192x3_S4x8192x8192_2_2_1_1_0_0_wf

class Facts : Prop extends Facts₀ where

variable [Facts]
-- ==== Proof.Spec.lean ====
/-
  The mathematics of the nearest-neighbour loss, on the extended reals, with no program in sight.

  For two clouds `x`, `y` of 8192 points of ℝ³ in each of 4 batches (channel-first: entry (b, c, n) is coordinate
  `c` of point `n` of batch `b`), write |p|² for the squared norm of a point and p·q for the inner product.
  One side computes, for a point p of `x`,       max (|p|² + min_q (|q|² − 2 p·q), 0)
  the other                                       min_q max ((|p|² + |q|²) − 2 p·q, 0),
  the minimum over all points q of `y` of the same batch, started from +∞.

  They are equal on the extended reals with no finiteness assumption:
    • addition is associative, and `u − v` is `u + (−v)`, so `a + (k − z) = (a + k) − z`;
    • `t ↦ max (a + t) 0` is monotone, and a monotone map commutes with the minimum of a NONEMPTY finite family
      started from the top element (`map_fold_min`: the minimum is attained, or everything is the top).
  The minimum over 8192 points may be taken 1024 at a time: the running minimum over the first `k` points,
  joined with the minimum over the next 1024, is the running minimum over the first `k + 1024` (`runMin_step`).
-/
import Idealize.ShloMosaic.PureOps.Ideal.Laws
import Idealize.ShloMosaic.Lib.ValueIdx

noncomputable section

namespace Chamfer

open Idealize.ShloMosaic Idealize.ShloMosaic.ValueIdx

/-! ## Minima of finite families -/

section Order

variable {α β ι : Type} [LinearOrder α] [OrderTop α] [LinearOrder β] [OrderTop β]

/-- Every member of a family is above the family's minimum. -/
theorem fold_min_le_apply (s : Finset ι) (f : ι → α) (b : α) {m : ι} (hm : m ∈ s) : s.fold min b f ≤ f m :=
  (Finset.fold_min_le _).mpr (Or.inr ⟨m, hm, le_rfl⟩)

/-- A monotone map commutes with the minimum, started from the top, of a nonempty finite family. -/
theorem map_fold_min [Fintype ι] [Nonempty ι] (g : α → β) (hg : Monotone g) (f : ι → α) :
    g (Finset.univ.fold min ⊤ f) = Finset.univ.fold min ⊤ (fun m => g (f m)) := by
  apply le_antisymm
  · rw [Finset.le_fold_min]
    exact ⟨le_top, fun m _ => hg (fold_min_le_apply _ f ⊤ (Finset.mem_univ m))⟩
  · have hatt : ∃ m₀, Finset.univ.fold min ⊤ f = f m₀ := by
      have h := (Finset.fold_min_le (s := Finset.univ) (f := f) (b := (⊤ : α))
        (Finset.univ.fold min ⊤ f)).mp le_rfl
      rcases h with h | ⟨m, _, hm⟩
      · obtain ⟨m₀⟩ := ‹Nonempty ι›
        exact ⟨m₀, le_antisymm (fold_min_le_apply _ f ⊤ (Finset.mem_univ m₀)) (le_trans le_top h)⟩
      · exact ⟨m, le_antisymm (fold_min_le_apply _ f ⊤ (Finset.mem_univ m)) hm⟩
    obtain ⟨m₀, h0⟩ := hatt
    rw [h0]
    exact fold_min_le_apply _ (fun m => g (f m)) ⊤ (Finset.mem_univ m₀)

/-- The running minimum, from the top, of `f` over the indices below `k`. -/
def runMin {n : ℕ} (f : Fin n → α) (k : ℕ) : α :=
  (Finset.univ.filter fun m : Fin n => m.val < k).fold min ⊤ f

theorem le_runMin {n : ℕ} (f : Fin n → α) (k : ℕ) (c : α) :
    c ≤ runMin f k ↔ ∀ m : Fin n, m.val < k → c ≤ f m := by
  unfold runMin
  rw [Finset.le_fold_min]
  constructor
  · intro h m hm; exact h.2 m (Finset.mem_filter.mpr ⟨Finset.mem_univ m, hm⟩)
  · intro h; exact ⟨le_top, fun m hm => h m (Finset.mem_filter.mp hm).2⟩

/-- Over no index the running minimum is the top. -/
theorem runMin_zero {n : ℕ} (f : Fin n → α) : runMin f 0 = ⊤ :=
  top_le_iff.mp ((le_runMin f 0 ⊤).mpr fun m hm => absurd hm (Nat.not_lt_zero _))

/-- Over every index it is the whole minimum. -/
theorem runMin_all {n : ℕ} (f : Fin n → α) : runMin f n = Finset.univ.fold min ⊤ f := by
  unfold runMin
  rw [Finset.filter_true_of_mem fun m _ => m.isLt]

/-- One more stretch of `w` indices: the running minimum below `k`, joined with the minimum of the stretch
    `k, …, k + w − 1`, is the running minimum below `k + w`. -/
theorem runMin_step {n : ℕ} (f : Fin n → α) (k w : ℕ) (hkw : k + w ≤ n) (t : α) (ht : t = ⊤) :
    min (runMin f k) (Finset.univ.fold min t fun j : Fin w => f ⟨k + j.val, lt_of_lt_of_le (Nat.add_lt_add_left j.isLt k) hkw⟩)
      = runMin f (k + w) := by
  subst ht
  refine eq_of_forall_le_iff fun c => ?_
  rw [le_min_iff, le_runMin, le_runMin, Finset.le_fold_min]
  constructor
  · rintro ⟨h1, -, h2⟩ m hm
    by_cases hk : m.val < k
    · exact h1 m hk
    · have hj : m.val - k < w := by omega
      have := h2 ⟨m.val - k, hj⟩ (Finset.mem_univ _)
      have e : (⟨k + (m.val - k), lt_of_lt_of_le (Nat.add_lt_add_left hj k) hkw⟩ : Fin n) = m :=
        Fin.ext (by show k + (m.val - k) = m.val; omega)
      rwa [e] at this
  · intro h
    exact ⟨fun m hm => h m (by omega), le_top, fun j _ => h _ (by show k + j.val < k + w; have := j.isLt; omega)⟩

end Order

/-! ## The two spellings of the clamped squared distance to the nearest point -/

/-- The literal words of the programs: 2, 0 and +∞. -/
abbrev two : EReal := Ideal.ofBits .f32 0x40000000#32
abbrev zero : EReal := Ideal.ofBits .f32 0x00000000#32
abbrev inf : EReal := Ideal.ofBits .f32 0x7F800000#32

/-- The word 0x7F800000 denotes the top of the extended reals. -/
theorem inf_eq_top : Ideal.ofBits .f32 0x7F800000#32 = (⊤ : EReal) := by simp [Ideal.ofBits, Ideal.ieee]

/-- The joining law, over any nonempty finite family of candidate points: `a` the query's squared norm, `k m` the
    squared norm of candidate `m`, `z m` twice their inner product. -/
theorem clamp_add_min {ι : Type} [Fintype ι] [Nonempty ι] (a o : EReal) (k z : ι → EReal) :
    max (a + Finset.univ.fold min ⊤ fun m => k m - z m) o
      = Finset.univ.fold min ⊤ fun m => max ((a + k m) - z m) o := by
  have hg : Monotone fun t : EReal => max (a + t) o :=
    fun s t h => max_le_max (add_le_add_right h a) le_rfl
  rw [map_fold_min (fun t : EReal => max (a + t) o) hg]
  refine congrArg (Finset.univ.fold min ⊤) (funext fun m => ?_)
  rw [sub_eq_add_neg, sub_eq_add_neg, add_assoc]

/-! ## The clouds -/

/-- A cloud array: 4 batches × 3 coordinates × 8192 points. -/
abbrev Cloud : Type := (⟨3, ![4, 3, 8192]⟩ : Shape).Idx → EReal

/-- The squared norm of point `n` of batch `b`, as both programs compute it: the zero word plus the sum of the
    three squared coordinates. -/
def sqn (x : Cloud) (b : Fin 4) (n : Fin 8192) : EReal :=
  zero + ∑ c : Fin 3, x (ix3 b c n) * x (ix3 b c n)

/-- The inner product of point `n` of `x` and point `m` of `y`, batch `b`. -/
def dotp (x y : Cloud) (b : Fin 4) (n m : Fin 8192) : EReal :=
  ∑ c : Fin 3, x (ix3 b c n) * y (ix3 b c m)

/-- What the tiled program minimizes over the candidates: |q|² − 2 p·q. -/
def shortfall (x y : Cloud) (b : Fin 4) (n m : Fin 8192) : EReal :=
  sqn y b m - two * dotp x y b n m

/-- The tiled program's value at point `n` of batch `b`: the query's squared norm added after the minimum, then
    clamped at zero. -/
def nearTiled (x y : Cloud) (b : Fin 4) (n : Fin 8192) : EReal :=
  max (sqn x b n + Finset.univ.fold min ⊤ (shortfall x y b n)) zero

/-- The plain program's value: every clamped squared distance, then the minimum. -/
def nearPlain (x y : Cloud) (b : Fin 4) (n : Fin 8192) : EReal :=
  Finset.univ.fold min ⊤ fun m : Fin 8192 => max ((sqn x b n + sqn y b m) - two * dotp x y b n m) zero

/-- They are one function. -/
theorem nearTiled_eq_nearPlain (x y : Cloud) (b : Fin 4) (n : Fin 8192) : nearTiled x y b n = nearPlain x y b n :=
  clamp_add_min (sqn x b n) zero (fun m => sqn y b m) (fun m => two * dotp x y b n m)

/-! ## From the per-point values to the loss -/

/-- Both programs end alike: the per-point values summed over the points, then over the batches, divided by 4, and
    that mean added to itself. Only the per-point array differs, so the final lines are never opened. -/
def loss (v : FVec Ideal ⟨2, ![4, 8192]⟩ .f32) (h1 : (⟨2, ![4, 8192]⟩ : Shape).ReducesTo [1] ⟨1, ![4]⟩)
    (h0 : (⟨1, ![4]⟩ : Shape).ReducesTo [0] ⟨0, ![]⟩) (hs : 0 < (⟨0, ![]⟩ : Shape).numel) : FVec Ideal ⟨0, ![]⟩ .f32 :=
  addf
    (Host.divf (Host.reduceAdd (Host.reduceAdd v (constant (F := Ideal) ⟨0, ![]⟩ .f32 0x00000000#32) h1 hs)
      (constant (F := Ideal) ⟨0, ![]⟩ .f32 0x00000000#32) h0 hs) (constant (F := Ideal) ⟨0, ![]⟩ .f32 0x40800000#32))
    (Host.divf (Host.reduceAdd (Host.reduceAdd v (constant (F := Ideal) ⟨0, ![]⟩ .f32 0x00000000#32) h1 hs)
      (constant (F := Ideal) ⟨0, ![]⟩ .f32 0x00000000#32) h0 hs) (constant (F := Ideal) ⟨0, ![]⟩ .f32 0x40800000#32))

end Chamfer

end
-- ==== Proof.RefSide.lean ====
/-
  The plain program read at an index. Its per-point array (the stage before the final sums) holds, at point `n` of
  batch `b`, the minimum over the candidates `m` — a one-axis minimum-reduction from +∞ — of the clamped squared
  distance max ((|p|² + |q|²) − 2 p·q, 0): `Chamfer.nearPlain`. The transposes only rename coordinates: entry
  (b, n, c) of a transposed cloud is entry (b, c, n) of the cloud.
-/
import proofs.«172436_j24249385353750_1_alg».proof.Proof.Gen.ReferenceIdeal.Read
import proofs.«172436_j24249385353750_1_alg».proof.Proof.Spec
import Idealize.ShloMosaic.Lib.ValueIdx
import Idealize.ShloMosaic.Lib.Pipeline.Value
import Idealize.ShloMosaic.PureOps.Ideal.Laws

noncomputable section

namespace Chamfer.Plain

open Idealize.ShloMosaic Idealize.ShloMosaic.ValueIdx Cert.ReferenceIdeal Cert.ReferenceIdeal.Gen Cert.ReferenceIdeal.Read

/-- Where the query's squared norm reads the first cloud: coordinate `k` of point `n`. -/
theorem idx_q (b : Fin 4) (n m : Fin 8192) (k : Fin 3) :
    idx_main_v0 (idx_main_v3 (idx_main_v7 (idx_main_v9 (ix3 b n m))) k) = ix3 b k n :=
  funext fun a => Fin.ext (by match a with | ⟨0, _⟩ => rfl | ⟨1, _⟩ => rfl | ⟨2, _⟩ => rfl)

/-- Where the candidate's squared norm reads the second cloud: coordinate `k` of point `m`. -/
theorem idx_k (b : Fin 4) (n m : Fin 8192) (k : Fin 3) :
    idx_main_v1 (idx_main_v5 (idx_main_v8 (idx_main_v10 (ix3 b n m))) k) = ix3 b k m :=
  funext fun a => Fin.ext (by match a with | ⟨0, _⟩ => rfl | ⟨1, _⟩ => rfl | ⟨2, _⟩ => rfl)

/-- Where the inner product reads the two clouds. -/
theorem idx_l (b : Fin 4) (n m : Fin 8192) (k : Fin 3) :
    idx_main_v0 (lidx_main_v6 (ix3 b n m) k) = ix3 b k n :=
  funext fun a => Fin.ext (by match a with | ⟨0, _⟩ => rfl | ⟨1, _⟩ => rfl | ⟨2, _⟩ => rfl)
theorem idx_r (b : Fin 4) (n m : Fin 8192) (k : Fin 3) :
    idx_main_v1 (ridx_main_v6 (ix3 b n m) k) = ix3 b k m :=
  funext fun a => Fin.ext (by match a with | ⟨0, _⟩ => rfl | ⟨1, _⟩ => rfl | ⟨2, _⟩ => rfl)

/-- The clamped squared distance between point `n` of the first cloud and point `m` of the second. -/
theorem clamped_apply (x0 x1 : Cloud) (b : Fin 4) (n m : Fin 8192) :
    val_main_v16 (F := Ideal) x0 x1 (ix3 b n m)
      = max ((sqn x0 b n + sqn x1 b m) - two * dotp x0 x1 b n m) zero := by
  rw [val_main_v16_apply, val_main_v14_apply, val_main_v11_apply, val_main_v13_apply, val_main_v9_apply,
    val_main_v7_apply, val_main_v3_apply, val_main_v10_apply, val_main_v8_apply, val_main_v5_apply,
    val_main_v12_apply, val_main_v6_apply, val_main_v15_apply]
  simp only [val_main_v2_apply, val_main_v4_apply, val_main_v0_apply, val_main_v1_apply, idx_q, idx_k, idx_l, idx_r]
  rfl

/-- The candidates of (b, n), along the reduced axis. -/
theorem lift_eq (h : S4x8192x8192.Reduces [2] S4x8192) (b : Fin 4) (n m : Fin 8192) :
    h.lift (ix2 b n) m = ix3 b n m :=
  funext fun a => Fin.ext (by match a with | ⟨0, _⟩ => rfl | ⟨1, _⟩ => rfl | ⟨2, _⟩ => rfl)

/-- The per-point array: the minimum, from +∞, over the candidates. -/
theorem perPoint_apply (x0 x1 : Cloud) (b : Fin 4) (n : Fin 8192) :
    val_main_v17 (F := Ideal) x0 x1 (ix2 b n) = nearPlain x0 x1 b n := by
  unfold val_main_v17
  rw [Host.reduce_eq_fold_single FloatOps.minimumf _ _ reducesTo_S4x8192x8192_S4x8192_d2 (by decide) h_S_]
  show Finset.univ.fold min (Ideal.ofBits .f32 0x7F800000#32) _ = _
  rw [inf_eq_top]
  unfold nearPlain
  refine congrArg (fun f => Finset.univ.fold min ⊤ f) (funext fun m => ?_)
  exact (congrArg (val_main_v16 (F := Ideal) x0 x1) (lift_eq _ b n m)).trans (clamped_apply x0 x1 b n m)

theorem perPoint_eq (x0 x1 : Cloud) :
    val_main_v17 (F := Ideal) x0 x1 = fun j => nearPlain x0 x1 (j 0) (j 1) :=
  funext fun j => by rw [eq_ix2 j]; exact perPoint_apply x0 x1 (j 0) (j 1)

/-- The plain program's result: the loss of its per-point array. -/
theorem result_eq (x0 x1 : Cloud) :
    val_main_v23 (F := Ideal) x0 x1
      = loss (val_main_v17 (F := Ideal) x0 x1) reducesTo_S4x8192_S4_d1 reducesTo_S4_S_d0 h_S_ := rfl

end Chamfer.Plain

end
-- ==== Proof.Pieces.lean ====
/-
  What one grid point leaves behind, as values. The running-minimum column lives in a scratch buffer that survives from
  one grid point to the next. At a point of the first key tile the body first overwrites the column with +∞ and then
  joins the tile's minimum into it; at a later point it joins the tile's minimum into what the point before left; at a
  point of the last key tile it moreover writes the output block, computed from the query norms and the column it has
  just completed. Each store covers its whole buffer and each load reads a whole buffer, so what is left is simply the
  stored value with the loaded blocks put in.
-/
import proofs.«172436_j24249385353750_1_alg».proof.Proof.Gen.KernelIdeal.Frame
import Idealize.ShloMosaic.Lib.Pipeline.Value
import Idealize.ShloMosaic.Lib.Tactic

noncomputable section

namespace Cert.KernelIdeal.Found

open Idealize.ShloMosaic Idealize.ShloMosaic.TcCoe Idealize.SL.Sem Cert.KernelIdeal Cert.KernelIdeal.Gen

variable {F : FTy → Type} [FloatOps F]

theorem hz2 : (![0, 0] : Fin 2 → Nat) = fun _ => 0 := funext fun a => by fin_cases a <;> rfl
theorem hz3 : (![0, 0, 0] : Fin 3 → Nat) = fun _ => 0 := funext fun a => by fin_cases a <;> rfl

/-- A point of the first key tile: the column restarts from +∞ and takes the tile's minimum. -/
theorem column_first (c : Dev nD) (i : grid0.Coords) (a3 : Memref sig .tc .vmem S1x3x1024 .f32) (h3 : a3.IsWhole)
    (a4 : Memref sig .tc .vmem S1x3x1024 .f32) (h4 : a4.IsWhole) (a5 : Memref sig .tc .vmem S1x1024x1 .f32) (h5 : a5.IsWhole)
    (a6 : Memref sig .tc .vmem S1x1x1024 .f32) (h6 : a6.IsWhole) (a7 : Memref sig .tc .vmem S1x1024x1 .f32) (h7 : a7.IsWhole)
    (a8 : Memref sig .tc .vmem S1024x1 .f32) (h8 : a8.IsWhole) (hc0 : cond0_0 i) (hc1 : ¬cond0_1 i)
    (x0 x1 : Vec F S1x3x1024 .f32) (x2 : Vec F S1x1024x1 .f32) (x3 : Vec F S1x1x1024 .f32) :
    sout0_A_0 c i a3 h3 a4 h4 a5 h5 a6 h6 a7 h7 a8 h8 hc0 hc1 x0 x1 x2 x3 = k0_pay2 x0 x1 x3 k0_pay1 := by
  unfold sout0_A_0
  rw [View.read_writes_eq_canon _ _ _ (scover0_A_0 c i a3 h3 a4 h4 a5 h5 a6 h6 a7 h7 a8 h8 hc0 hc1 x0 x1 x2 x3)]
  unfold kernelRun0_A
  dsimp only
  sl_unfold_words
  rw [View.canon_cons_unit_zero (S := S1024x1) hz2, View.readCov_unit_zero (S := S1024x1) _ hz2]
  simp only [View.readAt_eq_ld, h3.read_unread, h4.read_unread, h5.read_unread, h6.read_unread, h8.read_unread,
    View.ld_unit_zero (S := S1x3x1024) hz3, View.ld_unit_zero (S := S1x1x1024) hz3, View.ld_unit_zero (S := S1x1024x1) hz3,
    View.ld_unit_zero (S := S1024x1) hz2]

/-- A point of a middle key tile: the column the point before left takes the tile's minimum. -/
theorem column_middle (c : Dev nD) (i : grid0.Coords) (a3 : Memref sig .tc .vmem S1x3x1024 .f32) (h3 : a3.IsWhole)
    (a4 : Memref sig .tc .vmem S1x3x1024 .f32) (h4 : a4.IsWhole) (a5 : Memref sig .tc .vmem S1x1024x1 .f32) (h5 : a5.IsWhole)
    (a6 : Memref sig .tc .vmem S1x1x1024 .f32) (h6 : a6.IsWhole) (a7 : Memref sig .tc .vmem S1x1024x1 .f32) (h7 : a7.IsWhole)
    (a8 : Memref sig .tc .vmem S1024x1 .f32) (h8 : a8.IsWhole) (hc0 : ¬cond0_0 i) (hc1 : ¬cond0_1 i)
    (x0 x1 : Vec F S1x3x1024 .f32) (x2 : Vec F S1x1024x1 .f32) (x3 : Vec F S1x1x1024 .f32) (xs0 : Vec F S1024x1 .f32) :
    sout0_B_0 c i a3 h3 a4 h4 a5 h5 a6 h6 a7 h7 a8 h8 hc0 hc1 x0 x1 x2 x3 xs0 = k0_pay2 x0 x1 x3 xs0 := by
  unfold sout0_B_0
  rw [View.read_writes_eq_canon _ _ _ (scover0_B_0 c i a3 h3 a4 h4 a5 h5 a6 h6 a7 h7 a8 h8 hc0 hc1 x0 x1 x2 x3 xs0)]
  unfold kernelRun0_B
  dsimp only
  rw [View.canon_unit_zero hz2]
  simp only [View.readAt_eq_ld, h3.read_unread, h4.read_unread, h5.read_unread, h6.read_unread, h8.read_unread,
    View.ld_unit_zero (S := S1x3x1024) hz3, View.ld_unit_zero (S := S1x1x1024) hz3, View.ld_unit_zero (S := S1x1024x1) hz3,
    View.ld_unit_zero (S := S1024x1) hz2]

/-- A point of the last key tile: the column likewise, -/
theorem column_last (c : Dev nD) (i : grid0.Coords) (a3 : Memref sig .tc .vmem S1x3x1024 .f32) (h3 : a3.IsWhole)
    (a4 : Memref sig .tc .vmem S1x3x1024 .f32) (h4 : a4.IsWhole) (a5 : Memref sig .tc .vmem S1x1024x1 .f32) (h5 : a5.IsWhole)
    (a6 : Memref sig .tc .vmem S1x1x1024 .f32) (h6 : a6.IsWhole) (a7 : Memref sig .tc .vmem S1x1024x1 .f32) (h7 : a7.IsWhole)
    (a8 : Memref sig .tc .vmem S1024x1 .f32) (h8 : a8.IsWhole) (hc0 : ¬cond0_0 i) (hc1 : cond0_1 i)
    (x0 x1 : Vec F S1x3x1024 .f32) (x2 : Vec F S1x1024x1 .f32) (x3 : Vec F S1x1x1024 .f32) (xs0 : Vec F S1024x1 .f32) :
    sout0_C_0 c i a3 h3 a4 h4 a5 h5 a6 h6 a7 h7 a8 h8 hc0 hc1 x0 x1 x2 x3 xs0 = k0_pay2 x0 x1 x3 xs0 := by
  unfold sout0_C_0
  rw [View.read_writes_eq_canon _ _ _ (scover0_C_0 c i a3 h3 a4 h4 a5 h5 a6 h6 a7 h7 a8 h8 hc0 hc1 x0 x1 x2 x3 xs0)]
  unfold kernelRun0_C
  dsimp only
  sl_unfold_words
  rw [View.canon_unit_zero hz2]
  simp only [View.readAt_eq_ld, h3.read_unread, h4.read_unread, h5.read_unread, h6.read_unread, h8.read_unread,
    View.ld_unit_zero (S := S1x3x1024) hz3, View.ld_unit_zero (S := S1x1x1024) hz3, View.ld_unit_zero (S := S1x1024x1) hz3,
    View.ld_unit_zero (S := S1024x1) hz2]

/-- and the output block: the query norms plus the completed column, clamped. -/
theorem block_last (c : Dev nD) (i : grid0.Coords) (a3 : Memref sig .tc .vmem S1x3x1024 .f32) (h3 : a3.IsWhole)
    (a4 : Memref sig .tc .vmem S1x3x1024 .f32) (h4 : a4.IsWhole) (a5 : Memref sig .tc .vmem S1x1024x1 .f32) (h5 : a5.IsWhole)
    (a6 : Memref sig .tc .vmem S1x1x1024 .f32) (h6 : a6.IsWhole) (a7 : Memref sig .tc .vmem S1x1024x1 .f32) (h7 : a7.IsWhole)
    (a8 : Memref sig .tc .vmem S1024x1 .f32) (h8 : a8.IsWhole) (hc0 : ¬cond0_0 i) (hc1 : cond0_1 i)
    (x0 x1 : Vec F S1x3x1024 .f32) (x2 : Vec F S1x1024x1 .f32) (x3 : Vec F S1x1x1024 .f32) (xs0 : Vec F S1024x1 .f32) :
    out0_C_4 c i a3 h3 a4 h4 a5 h5 a6 h6 a7 h7 a8 h8 hc0 hc1 x0 x1 x2 x3 xs0 = k0_pay3 x2 (k0_pay2 x0 x1 x3 xs0) := by
  unfold out0_C_4
  rw [View.read_writes_eq_canon _ _ _ (cover0_C_4 c i a3 h3 a4 h4 a5 h5 a6 h6 a7 h7 a8 h8 hc0 hc1 x0 x1 x2 x3 xs0)]
  unfold kernelRun0_C
  dsimp only
  sl_unfold_words
  rw [View.canon_unit_zero hz3, View.readCov_unit_zero (S := S1024x1) _ hz2]
  simp only [View.readAt_eq_ld, h3.read_unread, h4.read_unread, h5.read_unread, h6.read_unread, h8.read_unread,
    View.ld_unit_zero (S := S1x3x1024) hz3, View.ld_unit_zero (S := S1x1x1024) hz3, View.ld_unit_zero (S := S1x1024x1) hz3,
    View.ld_unit_zero (S := S1024x1) hz2]

end Cert.KernelIdeal.Found

end
-- ==== Proof.Body.lean ====
/-
  The body's arithmetic, entry by entry, on the extended reals.

  One grid point sees a tile of 1024 query points (coordinates `q c r`), a tile of 1024 candidate points
  (coordinates `k c j`), the candidates' squared norms `w j` and the column `acc` of running minima. A change of
  float format is the identity here, so the matrix product of the two tiles is the plain inner product over the three
  coordinates; the row-wise minimum from +∞ over the 1024 candidates is a minimum over `j`; and the new column entry
  at query `r` is
        min (acc r) (min_j (w j − 2 · Σ_c q c r · k c j)).
  The restart column is +∞ everywhere, and the output entry at query `r` is max (s r + acc r) 0 for the query's
  squared norm `s r`.
-/
import proofs.«172436_j24249385353750_1_alg».proof.Proof.Gen.KernelIdeal.Skeleton
import proofs.«172436_j24249385353750_1_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Body

open Idealize.ShloMosaic Idealize.ShloMosaic.ValueIdx Cert.KernelIdeal Cert.KernelIdeal.Gen Chamfer

/-- The operand indices of the tile product at output (r, j) and contraction coordinate q: the left tile is read at
    (q, r), the right tile at (q, j). -/
theorem lhs_0 (i : S1024x1024.Idx) (q : dot_S3x1024_S3x1024_S1024x1024_0_0_1_1_n_n.contr.Idx) :
    (dot_S3x1024_S3x1024_S1024x1024_0_0_1_1_n_n.lhsIdx i q 0).val = (q ⟨0, by decide⟩).val :=
  dot_S3x1024_S3x1024_S1024x1024_0_0_1_1_n_n.lhsIdx_val_of_single rfl i q
theorem lhs_1 (i : S1024x1024.Idx) (q : dot_S3x1024_S3x1024_S1024x1024_0_0_1_1_n_n.contr.Idx) :
    (dot_S3x1024_S3x1024_S1024x1024_0_0_1_1_n_n.lhsIdx i q 1).val = (i 0).val := by
  unfold DotDims.lhsIdx
  rw [dif_neg (show ¬(1 : Fin S3x1024.rank) ∈ dot_S3x1024_S3x1024_S1024x1024_0_0_1_1_n_n.lhsBatch by decide),
    dif_pos (show (1 : Fin S3x1024.rank) ∈ dot_S3x1024_S3x1024_S1024x1024_0_0_1_1_n_n.lhsNonContracting by decide)]
  rfl
theorem rhs_0 (i : S1024x1024.Idx) (q : dot_S3x1024_S3x1024_S1024x1024_0_0_1_1_n_n.contr.Idx) :
    (dot_S3x1024_S3x1024_S1024x1024_0_0_1_1_n_n.rhsIdx i q 0).val = (q ⟨0, by decide⟩).val :=
  dot_S3x1024_S3x1024_S1024x1024_0_0_1_1_n_n.rhsIdx_val_of_single rfl i q
theorem rhs_1 (i : S1024x1024.Idx) (q : dot_S3x1024_S3x1024_S1024x1024_0_0_1_1_n_n.contr.Idx) :
    (dot_S3x1024_S3x1024_S1024x1024_0_0_1_1_n_n.rhsIdx i q 1).val = (i 1).val := by
  unfold DotDims.rhsIdx
  rw [dif_neg (show ¬(1 : Fin S3x1024.rank) ∈ dot_S3x1024_S3x1024_S1024x1024_0_0_1_1_n_n.rhsBatch by decide),
    dif_pos (show (1 : Fin S3x1024.rank) ∈ dot_S3x1024_S3x1024_S1024x1024_0_0_1_1_n_n.rhsNonContracting by decide)]
  rfl

/-- The product of the two tiles at (query r, candidate j): the inner product over the three coordinates. -/
theorem product_apply (u v : FVec Ideal S3x1024 .bf16) (r j : Fin 1024) :
    matmul dot_S3x1024_S3x1024_S1024x1024_0_0_1_1_n_n none u v (constant (F := Ideal) S1024x1024 .f32 0x00000000#32) (ix2 r j)
      = ∑ c : Fin 3, u (ix2 c r) * v (ix2 c j) := by
  simp only [matmul]
  rw [Ideal.matmul_constant_zero_apply, ← Equiv.sum_comp (contrEquiv1 dot_S3x1024_S3x1024_S1024x1024_0_0_1_1_n_n 3 rfl rfl).symm]
  refine Finset.sum_congr rfl fun c _ => ?_
  have hc := contrEquiv1_symm_val dot_S3x1024_S3x1024_S1024x1024_0_0_1_1_n_n 3 rfl rfl c
  have el : dot_S3x1024_S3x1024_S1024x1024_0_0_1_1_n_n.lhsIdx (ix2 r j) ((contrEquiv1 dot_S3x1024_S3x1024_S1024x1024_0_0_1_1_n_n 3 rfl rfl).symm c) = ix2 c r :=
    funext fun a => Fin.ext (by
      match a with
      | ⟨0, _⟩ => exact (lhs_0 _ _).trans hc
      | ⟨1, _⟩ => exact lhs_1 _ _)
  have er : dot_S3x1024_S3x1024_S1024x1024_0_0_1_1_n_n.rhsIdx (ix2 r j) ((contrEquiv1 dot_S3x1024_S3x1024_S1024x1024_0_0_1_1_n_n 3 rfl rfl).symm c) = ix2 c j :=
    funext fun a => Fin.ext (by
      match a with
      | ⟨0, _⟩ => exact (rhs_0 _ _).trans hc
      | ⟨1, _⟩ => exact rhs_1 _ _)
  rw [el, er]

/-- A row-wise minimum from +∞ of a 1024 × 1024 array, at row r: the minimum over the row. -/
theorem rowMin_apply (z : FVec Ideal S1024x1024 .f32) (r : Fin 1024) (hφ : FKind.Formats .f32)
    (hacc : (0x7F800000#32 : BitVec 32) = FKind.minimumf.neutral .f32 hφ) :
    multiReduction .minimumf [1] S1024 z 0x7F800000#32 reduces_S1024x1024_S1024 hφ hacc (ix1 r)
      = Finset.univ.fold min ⊤ fun j : Fin 1024 => z (ix2 r j) := by
  refine (multiReduction_minimumf_eq_fold z _ reduces_S1024x1024_S1024 hφ hacc (ix1 r)).trans ?_
  refine (reduces_S1024x1024_S1024.fold_filter_drop_single _ _ z (ix1 r)).trans ?_
  show Finset.univ.fold min (Ideal.ofBits .f32 0x7F800000#32) _ = _
  rw [inf_eq_top]
  refine congrArg (fun f => Finset.univ.fold min ⊤ f) (funext fun j => ?_)
  show z (reduces_S1024x1024_S1024.lift (ix1 r) j) = z (ix2 r j)
  exact congrArg z (funext fun a => Fin.ext (by match a with | ⟨0, _⟩ => rfl | ⟨1, _⟩ => rfl))

/-- A vector of 1024 entries viewed as a column: entry (r, 0) is entry r. -/
theorem column_apply (x : FVec Ideal S1024 .f32) (r : Fin 1024) (u : Fin 1) :
    shapeCast S1024x1 x shapeCasts_S1024_S1024x1 (ix2 r u) = x (ix1 r) :=
  shapeCast_apply x shapeCasts_S1024_S1024x1 _ _ (by
    have hu : u.val = 0 := by omega
    rw [Shape.rowMajor_val_one, Shape.rowMajor_val_two]
    show r.val = r.val * 1 + u.val
    omega)

/-- The restart column is +∞ everywhere. -/
theorem restart_apply (i : S1024x1.Idx) : k0_pay1 (F := Ideal) i = ⊤ := by
  unfold k0_pay1
  rw [shapeCast_self]
  exact inf_eq_top

/-- The new column entry at query r. -/
theorem column_step_apply (x0 x1 : Vec Ideal S1x3x1024 .f32) (x3 : Vec Ideal S1x1x1024 .f32) (acc : Vec Ideal S1024x1 .f32)
    (r : Fin 1024) (u : Fin 1) :
    k0_pay2 (F := Ideal) x0 x1 x3 acc (ix2 r u)
      = min (acc (ix2 r u)) (Finset.univ.fold min ⊤ fun j : Fin 1024 =>
          x3 (ix3 (0 : Fin 1) (0 : Fin 1) j) - two * ∑ c : Fin 3, x0 (ix3 (0 : Fin 1) c r) * x1 (ix3 (0 : Fin 1) c j)) := by
  unfold k0_pay2
  rw [shapeCast_self]
  refine (minimumf_apply _ _ _).trans ?_
  refine congrArg (min (acc (ix2 r u))) ?_
  refine (column_apply _ r u).trans ?_
  refine (rowMin_apply _ r (.inl rfl) rfl).trans ?_
  refine congrArg (fun f => Finset.univ.fold min ⊤ f) (funext fun j => ?_)
  refine (subf_apply _ _ _).trans ?_
  refine congrArg₂ (· - ·) ?_ ?_
  · refine (broadcastTo_1b_ab_apply _ broadcasts_S1x1024_S1024x1024 r j).trans ?_
    exact shapeCast_1ab_ab_apply x3 shapeCasts_S1x1x1024_S1x1024 (0 : Fin 1) j
  · refine (mulf_apply _ _ _).trans ?_
    refine congrArg₂ (· * ·) rfl ?_
    refine (product_apply _ _ r j).trans ?_
    refine Finset.sum_congr rfl fun c _ => ?_
    refine congrArg₂ (· * ·) ?_ ?_
    · exact shapeCast_1ab_ab_apply x0 shapeCasts_S1x3x1024_S3x1024 c r
    · exact shapeCast_1ab_ab_apply x1 shapeCasts_S1x3x1024_S3x1024 c j

/-- The output entry at query r: the query's squared norm plus the completed minimum, clamped at zero. -/
theorem output_apply (x2 : Vec Ideal S1x1024x1 .f32) (acc : Vec Ideal S1024x1 .f32) (r : Fin 1024) (u v : Fin 1) :
    k0_pay3 (F := Ideal) x2 acc (ix3 v r u) = max (x2 (ix3 (0 : Fin 1) r u) + acc (ix2 r u)) zero := by
  unfold k0_pay3
  refine (shapeCast_ab_1ab_apply _ shapeCasts_S1024x1_S1x1024x1 v r u).trans ?_
  refine (maximumf_apply _ _ _).trans ?_
  refine congrArg₂ max ?_ rfl
  refine (addf_apply _ _ _).trans ?_
  exact congrArg₂ (· + ·) (shapeCast_1ab_ab_apply x2 shapeCasts_S1x1024x1_S1024x1 r u) rfl

end Cert.KernelIdeal.Body

end
-- ==== Proof.Tiles.lean ====
/-
  Where a grid point's blocks sit in the arrays.

  The grid has 4 × 8 × 8 points, numbered t = 64·b + 8·qt + kt: batch `b`, query tile `qt`, key tile `kt`, the key
  tile moving fastest. At point t the body sees
    • coordinates of the 1024 query points  1024·qt + r  of the first cloud, batch b;
    • coordinates of the 1024 candidate points  1024·kt + j  of the second cloud, batch b;
    • the squared norms of those query points (an array [4, 8192, 1] the host lines before the call computed);
    • the squared norms of those candidates (an array [4, 1, 8192] computed likewise);
  and the output block holds the values of the same 1024 query points. The two norm arrays hold, at point n of batch b,
  the zero word plus the sum of the three squared coordinates: `Chamfer.sqn`.
-/
import proofs.«172436_j24249385353750_1_alg».proof.Proof.Gen.KernelIdeal.Frame.Runs
import proofs.«172436_j24249385353750_1_alg».proof.Proof.Spec
import Idealize.ShloMosaic.Lib.ValueIdx
import Idealize.ShloMosaic.Lib.Pipeline.Value
import Idealize.ShloMosaic.Lib.StableHlo.Run
import Idealize.ShloMosaic.PureOps.Ideal.Laws

noncomputable section

namespace Cert.KernelIdeal.Tiles

open Idealize.ShloMosaic Idealize.ShloMosaic.TcCoe Idealize.SL.Sem Idealize.ShloMosaic.ValueIdx
open Cert.KernelIdeal Cert.KernelIdeal.Gen Chamfer

variable (m : (ℓ : Loc nD τ sig) → Buf (Elt Ideal) ℓ)

/-! ## The grid's coordinates -/

theorem lt_points (t : Fin cfg0.N) : t.val < 256 := lt_of_lt_of_eq t.isLt N_0

/-- The batch, the query tile and the key tile of grid point t. -/
def batch (t : Fin cfg0.N) : Fin 4 := ⟨t.val / 64, by have := lt_points t; omega⟩
def qtile (t : Fin cfg0.N) : Fin 8 := ⟨t.val / 8 % 8, by omega⟩
def ktile (t : Fin cfg0.N) : Fin 8 := ⟨t.val % 8, by omega⟩

/-- Point r of tile q, among the 8192. -/
def pt (q : Fin 8) (r : Fin 1024) : Fin 8192 := ⟨q.val * 1024 + r.val, by have := q.isLt; have := r.isLt; omega⟩

/-- The five index maps, decided over the 256 points. -/
theorem index_facts : ∀ t : Fin cfg0.N,
    (win0_0.index t (0 : Fin 3) = t.val / 64 ∧ win0_0.index t (1 : Fin 3) = 0 ∧ win0_0.index t (2 : Fin 3) = t.val / 8 % 8)
    ∧ (win0_1.index t (0 : Fin 3) = t.val / 64 ∧ win0_1.index t (1 : Fin 3) = 0 ∧ win0_1.index t (2 : Fin 3) = t.val % 8)
    ∧ (win0_2.index t (0 : Fin 3) = t.val / 64 ∧ win0_2.index t (1 : Fin 3) = t.val / 8 % 8 ∧ win0_2.index t (2 : Fin 3) = 0)
    ∧ (win0_3.index t (0 : Fin 3) = t.val / 64 ∧ win0_3.index t (1 : Fin 3) = 0 ∧ win0_3.index t (2 : Fin 3) = t.val % 8)
    ∧ (win0_4.index t (0 : Fin 3) = t.val / 64 ∧ win0_4.index t (1 : Fin 3) = t.val / 8 % 8 ∧ win0_4.index t (2 : Fin 3) = 0) :=
  (by decide +kernel : ∀ t : Fin grid0.N, _)

/-! ## The four input blocks -/

/-- The query tile: coordinate cc of query r is coordinate cc of point 1024·qt + r of the first cloud. -/
theorem query_block (c : Dev nD) (t : Fin cfg0.N) (u : Fin 1) (cc : Fin 3) (r : Fin 1024) :
    (iblk m c 0 t : Vec Ideal S1x3x1024 .f32) (ix3 u cc r)
      = V m c main_arg0 (ix3 (batch t) cc (pt (qtile t) r)) := by
  obtain ⟨⟨h0, h1, h2⟩, -⟩ := index_facts t
  have hu : u.val = 0 := by omega
  unfold iblk
  rw [View.read_apply]
  show V m c main_arg0 _ = V m c main_arg0 _
  congr 1
  funext a
  apply Fin.ext
  match a with
  | ⟨0, _⟩ => show win0_0.index t 0 * 1 + 1 * u.val = t.val / 64; rw [h0]; omega
  | ⟨1, _⟩ => show win0_0.index t 1 * 3 + 1 * cc.val = cc.val; rw [h1]; omega
  | ⟨2, _⟩ => show win0_0.index t 2 * 1024 + 1 * r.val = t.val / 8 % 8 * 1024 + r.val; rw [h2]; omega

/-- The key tile: coordinate cc of candidate j is coordinate cc of point 1024·kt + j of the second cloud. -/
theorem key_block (c : Dev nD) (t : Fin cfg0.N) (u : Fin 1) (cc : Fin 3) (j : Fin 1024) :
    (iblk m c 1 t : Vec Ideal S1x3x1024 .f32) (ix3 u cc j)
      = V m c main_arg1 (ix3 (batch t) cc (pt (ktile t) j)) := by
  obtain ⟨-, ⟨h0, h1, h2⟩, -⟩ := index_facts t
  have hu : u.val = 0 := by omega
  unfold iblk
  rw [View.read_apply]
  show V m c main_arg1 _ = V m c main_arg1 _
  congr 1
  funext a
  apply Fin.ext
  match a with
  | ⟨0, _⟩ => show win0_1.index t 0 * 1 + 1 * u.val = t.val / 64; rw [h0]; omega
  | ⟨1, _⟩ => show win0_1.index t 1 * 3 + 1 * cc.val = cc.val; rw [h1]; omega
  | ⟨2, _⟩ => show win0_1.index t 2 * 1024 + 1 * j.val = t.val % 8 * 1024 + j.val; rw [h2]; omega

/-- The query norms' block. -/
theorem qnorm_block (c : Dev nD) (t : Fin cfg0.N) (u : Fin 1) (r : Fin 1024) (v : Fin 1) :
    (iblk m c 2 t : Vec Ideal S1x1024x1 .f32) (ix3 u r v)
      = V m c main_v2 (ix3 (batch t) (pt (qtile t) r) v) := by
  obtain ⟨-, -, ⟨h0, h1, h2⟩, -⟩ := index_facts t
  have hu : u.val = 0 := by omega
  have hv : v.val = 0 := by omega
  unfold iblk
  rw [View.read_apply]
  show V m c main_v2 _ = V m c main_v2 _
  congr 1
  funext a
  apply Fin.ext
  match a with
  | ⟨0, _⟩ => show win0_2.index t 0 * 1 + 1 * u.val = t.val / 64; rw [h0]; omega
  | ⟨1, _⟩ => show win0_2.index t 1 * 1024 + 1 * r.val = t.val / 8 % 8 * 1024 + r.val; rw [h1]; omega
  | ⟨2, _⟩ => show win0_2.index t 2 * 1 + 1 * v.val = v.val; rw [h2]; omega

/-- The candidate norms' block. -/
theorem knorm_block (c : Dev nD) (t : Fin cfg0.N) (u v : Fin 1) (j : Fin 1024) :
    (iblk m c 3 t : Vec Ideal S1x1x1024 .f32) (ix3 u v j)
      = V m c main_v5 (ix3 (batch t) v (pt (ktile t) j)) := by
  obtain ⟨-, -, -, ⟨h0, h1, h2⟩, -⟩ := index_facts t
  have hu : u.val = 0 := by omega
  have hv : v.val = 0 := by omega
  unfold iblk
  rw [View.read_apply]
  show V m c main_v5 _ = V m c main_v5 _
  congr 1
  funext a
  apply Fin.ext
  match a with
  | ⟨0, _⟩ => show win0_3.index t 0 * 1 + 1 * u.val = t.val / 64; rw [h0]; omega
  | ⟨1, _⟩ => show win0_3.index t 1 * 1 + 1 * v.val = v.val; rw [h1]; omega
  | ⟨2, _⟩ => show win0_3.index t 2 * 1024 + 1 * j.val = t.val % 8 * 1024 + j.val; rw [h2]; omega

/-! ## The two norm arrays, as the host lines before the call leave them -/

/-- The first cloud, as launched. -/
abbrev cloud0 (c : Dev nD) : Cloud := m ((c : Thread nD τ).loc main_arg0)
/-- The second cloud, as launched. -/
abbrev cloud1 (c : Dev nD) : Cloud := m ((c : Thread nD τ).loc main_arg1)

theorem qnorm_array (c : Dev nD) :
    (V m c main_v2 : S4x8192x1.Idx → EReal)
      = broadcastInDim S4x8192x1 ![0, 1] bcast_S4x8192_S4x8192x1_0_1
          (Host.reduceAdd (mulf (cloud0 m c) (cloud0 m c)) (constant (F := Ideal) S_ .f32 0x00000000#32)
            reducesTo_S4x3x8192_S4x8192_d1 h_S_) := by
  show StableHlo.after hostOps0 (fun b => m (c, b)) (Proc.devRef .tc main_v2) = _
  after_results

theorem knorm_array (c : Dev nD) :
    (V m c main_v5 : S4x1x8192.Idx → EReal)
      = broadcastInDim S4x1x8192 ![0, 2] bcast_S4x8192_S4x1x8192_0_2
          (Host.reduceAdd (mulf (cloud1 m c) (cloud1 m c)) (constant (F := Ideal) S_ .f32 0x00000000#32)
            reducesTo_S4x3x8192_S4x8192_d1 h_S_) := by
  show StableHlo.after hostOps0 (fun b => m (c, b)) (Proc.devRef .tc main_v5) = _
  after_results

/-- A sum over the coordinate axis of the squares of a cloud, at point n of batch b. -/
theorem sumsq_apply (x : Cloud) (b : Fin 4) (n : Fin 8192) :
    Host.reduceAdd (F := Ideal) (mulf x x) (constant (F := Ideal) S_ .f32 0x00000000#32)
        reducesTo_S4x3x8192_S4x8192_d1 h_S_ (ix2 b n) = sqn x b n := by
  simp only [Host.reduceAdd, Ideal.hostReduceAdd_def]
  rw [Ideal.hostReduceAdd_single reducesTo_S4x3x8192_S4x8192_d1 (by decide)]
  unfold sqn
  refine congrArg₂ (· + ·) rfl (Finset.sum_congr rfl fun k _ => ?_)
  have e : Shape.Reduces.lift (s := S4x3x8192) (t := S4x8192) (a := (1 : Fin 3)) (by decide) (ix2 b n) k = ix3 b k n :=
    funext fun a => Fin.ext (by match a with | ⟨0, _⟩ => rfl | ⟨1, _⟩ => rfl | ⟨2, _⟩ => rfl)
  exact (congrArg (mulf (F := Ideal) (s := S4x3x8192) (φ := .f32) x x) e).trans (mulf_apply (s := S4x3x8192) (φ := .f32) x x (ix3 b k n))

/-- The query norms' array at (b, n, 0). -/
theorem qnorm_apply (c : Dev nD) (b : Fin 4) (n : Fin 8192) (v : Fin 1) :
    (V m c main_v2 : S4x8192x1.Idx → EReal) (ix3 b n v) = sqn (cloud0 m c) b n := by
  rw [qnorm_array]
  refine (broadcastInDim_apply _ bcast_S4x8192_S4x8192x1_0_1 _ (ix3 b n v) (ix2 b n) (fun a => match a with
    | ⟨0, _⟩ => by show b.val = if (4 : Nat) = 1 then 0 else b.val; rw [if_neg (by decide)]
    | ⟨1, _⟩ => by show n.val = if (8192 : Nat) = 1 then 0 else n.val; rw [if_neg (by decide)])).trans ?_
  exact sumsq_apply _ b n

/-- The candidate norms' array at (b, 0, n). -/
theorem knorm_apply (c : Dev nD) (b : Fin 4) (v : Fin 1) (n : Fin 8192) :
    (V m c main_v5 : S4x1x8192.Idx → EReal) (ix3 b v n) = sqn (cloud1 m c) b n := by
  rw [knorm_array]
  refine (broadcastInDim_apply _ bcast_S4x8192_S4x1x8192_0_2 _ (ix3 b v n) (ix2 b n) (fun a => match a with
    | ⟨0, _⟩ => by show b.val = if (4 : Nat) = 1 then 0 else b.val; rw [if_neg (by decide)]
    | ⟨1, _⟩ => by show n.val = if (8192 : Nat) = 1 then 0 else n.val; rw [if_neg (by decide)])).trans ?_
  exact sumsq_apply _ b n

end Cert.KernelIdeal.Tiles

end
-- ==== Proof.Accum.lean ====
/-
  The running minimum across the key tiles.

  For a fixed batch and query tile the eight grid points kt = 0, …, 7 follow one another, and the column of running
  minima is carried from each to the next. After the point of key tile kt the column holds, at query r, the minimum
  from +∞ of |q|² − 2 p·q over the candidates q numbered below 1024·(kt + 1): at kt = 0 the column restarts from +∞;
  at each later point the minimum over the new 1024 candidates is joined in (`Chamfer.runMin_step`). By induction on
  the grid point. At kt = 7 every candidate has been seen, and the output block is max (|p|² + that minimum, 0):
  `Chamfer.nearTiled` at the tile's query points.
-/
import proofs.«172436_j24249385353750_1_alg».proof.Proof.Gen.KernelIdeal.Frame
import proofs.«172436_j24249385353750_1_alg».proof.Proof.Pieces
import proofs.«172436_j24249385353750_1_alg».proof.Proof.Body
import proofs.«172436_j24249385353750_1_alg».proof.Proof.Tiles
import proofs.«172436_j24249385353750_1_alg».proof.Proof.Spec

noncomputable section

namespace Cert.KernelIdeal.Accum

open Idealize.ShloMosaic Idealize.ShloMosaic.TcCoe Idealize.SL.Sem Idealize.ShloMosaic.ValueIdx
open Cert.KernelIdeal Cert.KernelIdeal.Gen Cert.KernelIdeal.Tiles Chamfer

variable (m : (ℓ : Loc nD τ sig) → Buf (Elt Ideal) ℓ)

/-! ## What each kind of point leaves, over the point's blocks -/

/-- A point of the first key tile. -/
theorem column_at_first (c : Dev nD) (t : Fin cfg0.N) (h0 : t.val % 8 = 0) :
    (outsAt0 m c t.val t.isLt).2 = k0_pay2 (F := Ideal) (iblk m c 0 t) (iblk m c 1 t) (iblk m c 3 t) (k0_pay1 (F := Ideal)) := by
  have h1 : ¬t.val % 8 = 7 := by omega
  rw [outsAt0_A m c t h0 h1]
  dsimp only
  exact Found.column_first (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) ((hcond0_0 t).mpr h0) (fun h => h1 ((hcond0_1 t).mp h)) (iblk m c 0 t) (iblk m c 1 t) (iblk m c 2 t) (iblk m c 3 t)

/-- A point of a later key tile, over the column the point before left. -/
theorem column_at_later (c : Dev nD) (t : Fin cfg0.N) (h0 : ¬t.val % 8 = 0) :
    (outsAt0 m c t.val t.isLt).2 = k0_pay2 (F := Ideal) (iblk m c 0 t) (iblk m c 1 t) (iblk m c 3 t)
      (outsAt0 m c (t.val - 1) (Nat.lt_of_le_of_lt (Nat.sub_le _ _) t.isLt)).2 := by
  by_cases h1 : t.val % 8 = 7
  · rw [outsAt0_C m c t h0 h1]
    dsimp only
    exact Found.column_last (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) (fun h => h0 ((hcond0_0 t).mp h)) ((hcond0_1 t).mpr h1) (iblk m c 0 t) (iblk m c 1 t) (iblk m c 2 t) (iblk m c 3 t)
      (outsAt0 m c (t.val - 1) (Nat.lt_of_le_of_lt (Nat.sub_le _ _) t.isLt)).2
  · rw [outsAt0_B m c t h0 h1]
    dsimp only
    exact Found.column_middle (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) (fun h => h0 ((hcond0_0 t).mp h)) (fun h => h1 ((hcond0_1 t).mp h)) (iblk m c 0 t) (iblk m c 1 t) (iblk m c 2 t) (iblk m c 3 t)
      (outsAt0 m c (t.val - 1) (Nat.lt_of_le_of_lt (Nat.sub_le _ _) t.isLt)).2

/-- The output block at a point of the last key tile, over the column the point itself completes. -/
theorem block_at_last (c : Dev nD) (t : Fin cfg0.N) (h1 : t.val % 8 = 7) :
    (outsAt0 m c t.val t.isLt).1 = k0_pay3 (F := Ideal) (iblk m c 2 t) (outsAt0 m c t.val t.isLt).2 := by
  have h0 : ¬t.val % 8 = 0 := by omega
  rw [outsAt0_C m c t h0 h1]
  dsimp only
  exact (Found.block_last (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) (fun h => h0 ((hcond0_0 t).mp h)) ((hcond0_1 t).mpr h1) (iblk m c 0 t) (iblk m c 1 t) (iblk m c 2 t) (iblk m c 3 t)
      (outsAt0 m c (t.val - 1) (Nat.lt_of_le_of_lt (Nat.sub_le _ _) t.isLt)).2).trans
    (congrArg (k0_pay3 (F := Ideal) (iblk m c 2 t)) (Found.column_last (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) (fun h => h0 ((hcond0_0 t).mp h)) ((hcond0_1 t).mpr h1) (iblk m c 0 t) (iblk m c 1 t) (iblk m c 2 t) (iblk m c 3 t)
      (outsAt0 m c (t.val - 1) (Nat.lt_of_le_of_lt (Nat.sub_le _ _) t.isLt)).2).symm)

/-! ## One tile joined into a column -/

/-- What point t minimizes for its query r: |q|² − 2 p·q as a function of the candidate, among all 8192. -/
abbrev target (c : Dev nD) (t : Fin cfg0.N) (r : Fin 1024) : Fin 8192 → EReal :=
  shortfall (cloud0 m c) (cloud1 m c) (batch t) (pt (qtile t) r)

/-- At point t the body joins into a column `acc`, at query r, the minimum over the candidates of key tile kt. -/
theorem tile_step (c : Dev nD) (t : Fin cfg0.N) (acc : Vec Ideal S1024x1 .f32) (r : Fin 1024) (u : Fin 1) :
    k0_pay2 (F := Ideal) (iblk m c 0 t) (iblk m c 1 t) (iblk m c 3 t) acc (ix2 r u)
      = min (acc (ix2 r u)) (Finset.univ.fold min ⊤ fun j : Fin 1024 => target m c t r (pt (ktile t) j)) := by
  refine (Body.column_step_apply (iblk m c 0 t) (iblk m c 1 t) (iblk m c 3 t) acc r u).trans ?_
  refine congrArg (min (acc (ix2 r u))) (congrArg (fun f => Finset.univ.fold min ⊤ f) (funext fun j => ?_))
  refine congrArg₂ (· - ·) ?_ (congrArg (two * ·) (Finset.sum_congr rfl fun cc _ => congrArg₂ (· * ·) ?_ ?_))
  · exact (knorm_block m c t 0 0 j).trans (knorm_apply m c (batch t) 0 (pt (ktile t) j))
  · exact (query_block m c t 0 cc r).trans (congrFun (V_main_arg0 m c) _)
  · exact (key_block m c t 0 cc j).trans (congrFun (V_main_arg1 m c) _)

/-- The stretch of candidates of key tile kt, joined to the running minimum below it. -/
theorem join_tile (f : Fin 8192 → EReal) (kt : Fin 8) :
    min (runMin f (kt.val * 1024)) (Finset.univ.fold min ⊤ fun j : Fin 1024 => f (pt kt j)) = runMin f (kt.val * 1024 + 1024) :=
  runMin_step f (kt.val * 1024) 1024 (by have := kt.isLt; omega) ⊤ rfl

/-! ## The column after each point -/

theorem column_inv (c : Dev nD) : ∀ (n : ℕ) (h : n < cfg0.N) (r : Fin 1024) (u : Fin 1),
    (outsAt0 m c n h).2 (ix2 r u) = runMin (target m c ⟨n, h⟩ r) ((ktile ⟨n, h⟩).val * 1024 + 1024)
  | 0, h, r, u => by
    have e := column_at_first m c ⟨0, h⟩ (Nat.zero_mod 8)
    refine (congrFun e (ix2 r u)).trans ?_
    refine (tile_step m c ⟨0, h⟩ (k0_pay1 (F := Ideal)) r u).trans ?_
    rw [Body.restart_apply]
    refine (congrArg (fun z => min z _) ?_).trans (join_tile (target m c ⟨0, h⟩ r) (ktile ⟨0, h⟩))
    exact (runMin_zero _).symm
  | n + 1, h, r, u => by
    by_cases h0 : (n + 1) % 8 = 0
    · have e := column_at_first m c ⟨n + 1, h⟩ h0
      refine (congrFun e (ix2 r u)).trans ?_
      refine (tile_step m c ⟨n + 1, h⟩ (k0_pay1 (F := Ideal)) r u).trans ?_
      rw [Body.restart_apply]
      refine (congrArg (fun z => min z _) ?_).trans (join_tile (target m c ⟨n + 1, h⟩ r) (ktile ⟨n + 1, h⟩))
      have hk : (ktile ⟨n + 1, h⟩).val * 1024 = 0 := by show (n + 1) % 8 * 1024 = 0; omega
      rw [hk]
      exact (runMin_zero _).symm
    · have e := column_at_later m c ⟨n + 1, h⟩ h0
      refine (congrFun e (ix2 r u)).trans ?_
      refine (tile_step m c ⟨n + 1, h⟩ _ r u).trans ?_
      refine (congrArg (fun z => min z _) ?_).trans (join_tile (target m c ⟨n + 1, h⟩ r) (ktile ⟨n + 1, h⟩))
      refine (column_inv c n (Nat.lt_of_succ_lt h) r u).trans ?_
      have hb : batch ⟨n, Nat.lt_of_succ_lt h⟩ = batch ⟨n + 1, h⟩ := Fin.ext (by show n / 64 = (n + 1) / 64; omega)
      have hq : qtile ⟨n, Nat.lt_of_succ_lt h⟩ = qtile ⟨n + 1, h⟩ := Fin.ext (by show n / 8 % 8 = (n + 1) / 8 % 8; omega)
      have hk : (ktile ⟨n, Nat.lt_of_succ_lt h⟩).val * 1024 + 1024 = (ktile ⟨n + 1, h⟩).val * 1024 := by
        show n % 8 * 1024 + 1024 = (n + 1) % 8 * 1024; omega
      unfold target
      rw [hb, hq, hk]

/-- After the point of the last key tile the column holds the minimum over every candidate. -/
theorem column_complete (c : Dev nD) (t : Fin cfg0.N) (h1 : t.val % 8 = 7) (r : Fin 1024) (u : Fin 1) :
    (outsAt0 m c t.val t.isLt).2 (ix2 r u) = Finset.univ.fold min ⊤ (target m c t r) := by
  refine (column_inv m c t.val t.isLt r u).trans ?_
  have hk : (ktile t).val * 1024 + 1024 = 8192 := by show t.val % 8 * 1024 + 1024 = 8192; omega
  rw [hk]
  exact runMin_all _

/-- The output block that point writes: the tiled program's value at the tile's query points. -/
theorem block_value (c : Dev nD) (t : Fin cfg0.N) (h1 : t.val % 8 = 7) (v : Fin 1) (r : Fin 1024) (u : Fin 1) :
    (outsAt0 m c t.val t.isLt).1 (ix3 v r u) = nearTiled (cloud0 m c) (cloud1 m c) (batch t) (pt (qtile t) r) := by
  refine (congrFun (block_at_last m c t h1) (ix3 v r u)).trans ?_
  refine (Body.output_apply (iblk m c 2 t) (outsAt0 m c t.val t.isLt).2 r u v).trans ?_
  unfold nearTiled
  refine congrArg₂ max (congrArg₂ (· + ·) ?_ (column_complete m c t h1 r u)) rfl
  exact (qnorm_block m c t 0 r u).trans (qnorm_apply m c (batch t) (pt (qtile t) r) u)

end Cert.KernelIdeal.Accum

end
-- ==== Proof.Whole.lean ====
/-
  From blocks to the array, and from the array to the loss.

  The output array [4, 8192, 1] is written back one block of 1024 query points at a time, once per batch and query
  tile, at the point of the last key tile; those 32 blocks tile the array, so after the call the array holds, at
  (b, n, 0), the tiled program's value for point n of batch b. The host lines after the call view it as [4, 8192] and
  form the loss; they are the same lines the plain program ends with, and are kept closed (`Chamfer.loss`).
-/
import proofs.«172436_j24249385353750_1_alg».proof.Proof.Gen.KernelIdeal.Frame
import proofs.«172436_j24249385353750_1_alg».proof.Proof.Accum
import Idealize.ShloMosaic.Lib.Pipeline.Value
import Idealize.ShloMosaic.Lib.StableHlo.Run

noncomputable section

namespace Cert.KernelIdeal.Whole

open Idealize.ShloMosaic Idealize.ShloMosaic.TcCoe Idealize.SL.Sem Idealize.ShloMosaic.ValueIdx
open Idealize.ShloMosaic.Pipeline (Dat)
open Cert.KernelIdeal Cert.KernelIdeal.Gen Cert.KernelIdeal.Tiles Cert.KernelIdeal.Accum Chamfer

variable (m : (ℓ : Loc nD τ sig) → Buf (Elt Ideal) ℓ) (ρ : Dev nD → PrngReg)

/-- The array the call leaves: the tiled program's value at every point of every batch. -/
def perPoint (c : Dev nD) : S4x8192x1.Idx → EReal :=
  fun i => nearTiled (cloud0 m c) (cloud1 m c) (i 0) (i 1)

set_option maxHeartbeats 400000 in
/-- What a point of the last key tile writes back is its block of that array. -/
theorem flushed_eq (c : Dev nD) (t : Fin cfg0.N) (hf : (cfg0.win 4).flush t = true) :
    (dats m 0 c).flushed 4 t = ((cfg0.win 4).blk t).view.read (Elt Ideal) (perPoint m c) := by
  have h1 : t.val % 8 = 7 := (flush0_4 t).mp hf
  obtain ⟨-, -, -, -, ⟨e0, e1, e2⟩⟩ := index_facts t
  show (cfg0.win 4).cut (grid0.coords t) ((dats m 0 c).after 4 t) = _
  rw [after0_4]
  funext y
  have hv : (y 0).val = 0 := Nat.lt_one_iff.mp (y 0).isLt
  have hy : y = ix3 (n0 := 1) (n1 := 1024) (n2 := 1) (y 0) (y 1) (y 2) := eq_ix3 y
  refine Eq.trans (b := nearTiled (cloud0 m c) (cloud1 m c) (batch t) (pt (qtile t) (y 1))) ?_ ?_
  · exact (congrArg (outsAt0 m c t.val t.isLt).1 hy).trans (block_value m c t h1 (y 0) (y 1) (y 2))
  · rw [View.read_apply]
    show nearTiled (cloud0 m c) (cloud1 m c) (batch t) (pt (qtile t) (y 1))
      = nearTiled (cloud0 m c) (cloud1 m c) ((((cfg0.win 4).blk t).view.emb y) 0) ((((cfg0.win 4).blk t).view.emb y) 1)
    refine congrArg₂ (nearTiled (cloud0 m c) (cloud1 m c)) (Fin.ext ?_) (Fin.ext ?_)
    · show t.val / 64 = win0_4.index t (0 : Fin 3) * 1 + 1 * (y 0).val
      rw [e0]; omega
    · show t.val / 8 % 8 * 1024 + (y 1).val = win0_4.index t (1 : Fin 3) * 1024 + 1 * (y 1).val
      rw [e1]; omega

/-- An index of the array is in point t's block iff each coordinate is in the block's range on its axis. -/
theorem mem_block (t : Fin cfg0.N) (i : S4x8192x1.Idx) :
    i ∈ ((cfg0.win 4).blk t).view.set
      ↔ ∀ a : Fin 3, win0_4.index t a * S1x1024x1.size a ≤ (i a).val ∧ (i a).val < win0_4.index t a * S1x1024x1.size a + S1x1024x1.size a := by
  show i ∈ ((View.whole main_v6).slice (win0_4.rect t)).set ↔ _
  rw [View.set_slice_whole, Rect.mem_set_unit]
  exact Iff.rfl

/-- Every entry of the array is in the block some point of the last key tile writes back. -/
theorem covered (i : S4x8192x1.Idx) :
    ∃ t : Fin cfg0.N, (cfg0.win 4).flush t = true ∧ i ∈ ((cfg0.win 4).blk t).view.set := by
  have hi0 : (i 0).val < 4 := (i 0).isLt
  have hi1 : (i 1).val < 8192 := (i 1).isLt
  have hi2 : (i 2).val < 1 := (i 2).isLt
  have hN : cfg0.N = 256 := N_0
  let t : Fin cfg0.N := ⟨(i 0).val * 64 + (i 1).val / 1024 * 8 + 7, by rw [hN]; omega⟩
  have ht : t.val = (i 0).val * 64 + (i 1).val / 1024 * 8 + 7 := rfl
  obtain ⟨-, -, -, -, ⟨e0, e1, e2⟩⟩ := index_facts t
  refine ⟨t, (flush0_4 t).mpr (by rw [ht]; omega), ?_⟩
  rw [mem_block]
  intro a
  match a with
  | ⟨0, _⟩ =>
    show win0_4.index t (0 : Fin 3) * 1 ≤ (i 0).val ∧ (i 0).val < win0_4.index t (0 : Fin 3) * 1 + 1
    rw [e0, ht]; omega
  | ⟨1, _⟩ =>
    show win0_4.index t (1 : Fin 3) * 1024 ≤ (i 1).val ∧ (i 1).val < win0_4.index t (1 : Fin 3) * 1024 + 1024
    rw [e1, ht]; omega
  | ⟨2, _⟩ =>
    show win0_4.index t (2 : Fin 3) * 1 ≤ (i 2).val ∧ (i 2).val < win0_4.index t (2 : Fin 3) * 1 + 1
    rw [e2]; omega

/-- So the array ends holding the tiled program's values. -/
theorem final (c : Dev nD) : (dats m 0 c).arrAt 4 cfg0.N = perPoint m c :=
  (dats m 0 c).arrAt_eq_of_cover 4 (perPoint m c) (flushed_eq m c) covered

/-- The loss the host lines after the call form from that array. -/
def result (c : Dev nD) : FVec Ideal S_ .f32 :=
  loss (shapeCast S4x8192 (perPoint m c) shapeCasts_S4x8192x1_S4x8192) reducesTo_S4x8192_S4_d1 reducesTo_S4_S_d0 h_S_

theorem tail_eq (c : Dev nD) :
    Pipeline.afterTail₀ cfgs (dats m) 0 (V0 m) [hostOps1] c main_v13 = result m c := by
  unfold Pipeline.afterTail₀
  show StableHlo.after hostOps1 _ (Proc.devRef .tc main_v13) = _
  after_results
  have e := (Pipeline.withArrays_arr spec0 launch0.win.arr_inj c (V0 m c) (fun w => (dats m 0 c).arrAt w cfg0.N) 4).trans (final m c)
  rw [show Pipeline.withArrays (cfgs 0).spec c (V0 m c) (fun w => (dats m 0 c).arrAt w (cfgs 0).N) (Proc.tc.devRef main_v6)
    = perPoint m c from e]
  rfl

/-- The array viewed as [4, 8192] is the plain program's per-point array. -/
theorem flat_eq (c : Dev nD) :
    shapeCast S4x8192 (perPoint m c) shapeCasts_S4x8192x1_S4x8192
      = fun j => nearPlain (cloud0 m c) (cloud1 m c) (j 0) (j 1) := by
  funext j
  obtain ⟨b, n, rfl⟩ : ∃ (b : Fin 4) (n : Fin 8192), j = ix2 b n := ⟨j 0, j 1, eq_ix2 j⟩
  refine (shapeCast_apply (perPoint m c) shapeCasts_S4x8192x1_S4x8192 (ix2 b n) (ix3 b n (0 : Fin 1)) (by
    rw [Shape.rowMajor_val_three, Shape.rowMajor_val_two]
    show (b.val * 8192 + n.val) * 1 + 0 = b.val * 8192 + n.val
    omega)).trans ?_
  exact nearTiled_eq_nearPlain (cloud0 m c) (cloud1 m c) b n

/-- So the tiled program's loss is the loss of the plain program's per-point array. -/
theorem result_eq (c : Dev nD) :
    result m c = loss (fun j => nearPlain (cloud0 m c) (cloud1 m c) (j 0) (j 1))
      reducesTo_S4x8192_S4_d1 reducesTo_S4_S_d0 h_S_ := by
  unfold result
  rw [flat_eq]

/-- The run, read: the result at that loss, the two clouds unchanged. -/
theorem run : θ_run defs (onTc (τ := τ) (main (F := Ideal))) ⟨m, fun _ => 0, ρ⟩ fun r => ∀ c : Dev nD,
      r.2.mem ((c.tc : Thread nD τ).loc main_v13) = result m c
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun r h c =>
    ⟨((h c).2 main_v13 (Pipeline.mem_restRefs_of main_v13 rfl (by decide))).trans (tail_eq m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c)))⟩)
    (run_main m ρ)

end Cert.KernelIdeal.Whole

end
-- ==== Proof.lean ====
/-
  The nearest-neighbour loss of two point clouds, tiled against plain.

  Both programs take two clouds of 8192 points of ℝ³ in 4 batches and return one number: for every point p of the first
  cloud the clamped squared distance to the nearest point of the second cloud of the same batch, summed over the points,
  averaged over the batches, the mean added to itself.

  The plain program forms every squared distance as (|p|² + |q|²) − 2 p·q, clamps it at zero, and takes the minimum over
  q. The tiled program walks a grid of 4 batches × 8 query tiles × 8 key tiles; per query tile it keeps a column of running
  minima of |q|² − 2 p·q, restarted from +∞ at the first key tile and joined with each tile's minimum, and at the last
  key tile it adds |p|² and clamps. On the extended reals the two agree without any finiteness assumption (Proof/Spec.lean):
  addition is associative, `t ↦ max (|p|² + t) 0` is monotone, and a monotone map commutes with the minimum of a nonempty
  finite family. A change of float format is the identity at this reading, so the tiled program's product of narrowed
  tiles is the plain inner product.

  The modules: Spec (the law, the running minimum, the two spellings); RefSide (the plain program at an index); Pieces
  (what a grid point leaves in the carried column and in the output block); Body (the body's arithmetic at an index);
  Tiles (where a point's blocks sit in the arrays; the two norm arrays); Accum (the column after each point, by induction);
  Whole (blocks to array, array to loss, the run). Nothing was rewritten between the program and its
  idealized reading, so `preserves` is trivial.
-/
import proofs.«172436_j24249385353750_1_alg».proof.Defs
import proofs.«172436_j24249385353750_1_alg».proof.Proof.Gen.Kernel
import proofs.«172436_j24249385353750_1_alg».proof.Proof.Gen.Kernel.Frame
import proofs.«172436_j24249385353750_1_alg».proof.Proof.Gen.KernelIdeal
import proofs.«172436_j24249385353750_1_alg».proof.Proof.Gen.KernelIdeal.Frame
import proofs.«172436_j24249385353750_1_alg».proof.Proof.Gen.ReferenceIdeal
import proofs.«172436_j24249385353750_1_alg».proof.Proof.Gen.ReferenceIdeal.Run
import proofs.«172436_j24249385353750_1_alg».proof.Proof.Gen.ReferenceIdeal.Read
import proofs.«172436_j24249385353750_1_alg».proof.Proof.Gen.Pre_finite_inputs
import proofs.«172436_j24249385353750_1_alg».proof.Proof.RefSide
import proofs.«172436_j24249385353750_1_alg».proof.Proof.Whole
import Idealize.ShloMosaic.Adequacy
import Idealize.ShloMosaic.Init

noncomputable section

namespace Cert.Proof

open Idealize.ShloMosaic Idealize.SL.Sem

/-- The three programs run and leave the two clouds as they were. -/
theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.Value.run (F := Ideal) m ρ)

/-- Nothing was rewritten on the way to the idealized program. -/
theorem preserves : Cert.preserves_Kernel_KernelIdeal := trivial

/-- On the extended reals the tiled program's result is the loss of the per-point array
    min_q max ((|p|² + |q|²) − 2 p·q, 0), and so is the plain program's, of clouds that agree. -/
theorem algebraic : Cert.algebraic_KernelIdeal_ReferenceIdeal := by
  intro m ρ m' ρ' _ hagree
  refine ⟨fun c => Cert.KernelIdeal.Whole.result m c, Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v23_eq, Chamfer.Plain.result_eq, Chamfer.Plain.perPoint_eq,
    (hagree c).1, (hagree c).2]
  exact (Cert.KernelIdeal.Whole.result_eq m c).symm

theorem claim : Cert.Claim := ⟨Cert.Kernel.Gen.facts, Cert.KernelIdeal.Gen.facts, Cert.ReferenceIdeal.Gen.facts,
  Cert.Pre_finite_inputs.Gen.facts, frame_k, frame_ki, frame_ri, preserves, algebraic⟩

end Cert.Proof

end
